-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_v53) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x16777216 : Shape := ⟨2, ![1, 16777216]⟩
abbrev S_ : Shape := ⟨0, ![]⟩

class Facts : Prop where
  bcast_S_S1x16777216 : S_.BroadcastsInDim S1x16777216 (![] : Fin 0 → Fin S1x16777216.rank)
  reducesTo_S1x16777216_S_d0_1 : S1x16777216.ReducesTo [0, 1] S_
  h_S_ : 0 < S_.numel

variable [Facts]

def fn {F : FTy → Type} [FloatOps F] (main_arg0 : FVec F S1x16777216 .f32) (main_arg1 : FVec F S1x16777216 .f32) (main_arg2 : FVec F S1x16777216 .f32) : IVec S_ 1 :=
  let main_v0 : FVec F S1x16777216 .f32 := Host.absf main_arg0
  let main_cst : FVec F S_ .f32 := constant S_ .f32 0x7F800000#32
  let main_v1 : FVec F S1x16777216 .f32 := broadcastInDim S1x16777216 ![] bcast_S_S1x16777216 main_cst
  let main_v2 : IVec S1x16777216 1 := cmpf .olt main_v0 main_v1
  let main_c : IVec S_ 1 := constantI S_ 1 1#1
  let main_v3 : IVec S_ 1 := (fun x v => Host.reduce IntOp.andi x v reducesTo_S1x16777216_S_d0_1 h_S_) main_v2 main_c
  let main_v4 : FVec F S1x16777216 .f32 := Host.absf main_arg1
  let main_cst_0 : FVec F S_ .f32 := constant S_ .f32 0x7F800000#32
  let main_v5 : FVec F S1x16777216 .f32 := broadcastInDim S1x16777216 ![] bcast_S_S1x16777216 main_cst_0
  let main_v6 : IVec S1x16777216 1 := cmpf .olt main_v4 main_v5
  let main_c_1 : IVec S_ 1 := constantI S_ 1 1#1
  let main_v7 : IVec S_ 1 := (fun x v => Host.reduce IntOp.andi x v reducesTo_S1x16777216_S_d0_1 h_S_) main_v6 main_c_1
  let main_v8 : IVec S_ 1 := andi main_v3 main_v7
  let main_v9 : FVec F S1x16777216 .f32 := Host.absf main_arg2
  let main_cst_2 : FVec F S_ .f32 := constant S_ .f32 0x7F800000#32
  let main_v10 : FVec F S1x16777216 .f32 := broadcastInDim S1x16777216 ![] bcast_S_S1x16777216 main_cst_2
  let main_v11 : IVec S1x16777216 1 := cmpf .olt main_v9 main_v10
  let main_c_3 : IVec S_ 1 := constantI S_ 1 1#1
  let main_v12 : IVec S_ 1 := (fun x v => Host.reduce IntOp.andi x v reducesTo_S1x16777216_S_d0_1 h_S_) main_v11 main_c_3
  let main_v13 : IVec S_ 1 := andi main_v8 main_v12
  main_v13
-- ==== Kernel.lean ====
abbrev S1x16777216 : Shape := ⟨2, ![1, 16777216]⟩
abbrev S131072x128 : Shape := ⟨2, ![131072, 128]⟩
abbrev S4096x128 : Shape := ⟨2, ![4096, 128]⟩

abbrev nBuf : Space → Nat
  | .hbm => 12
  | .vmem => 12
  | .smem => 0
  | _ => 0

abbrev bufTy : (tb : Table) → Fin (tcTables nBuf tb) → BufTy
  | .hbm, ⟨0, _⟩ => ⟨S1x16777216, .f32⟩
  | .hbm, ⟨1, _⟩ => ⟨S1x16777216, .f32⟩
  | .hbm, ⟨2, _⟩ => ⟨S1x16777216, .f32⟩
  | .hbm, ⟨3, _⟩ => ⟨S131072x128, .f32⟩
  | .hbm, ⟨4, _⟩ => ⟨S131072x128, .f32⟩
  | .hbm, ⟨5, _⟩ => ⟨S131072x128, .f32⟩
  | .hbm, ⟨6, _⟩ => ⟨S131072x128, .f32⟩
  | .hbm, ⟨7, _⟩ => ⟨S131072x128, .f32⟩
  | .hbm, ⟨8, _⟩ => ⟨S131072x128, .f32⟩
  | .hbm, ⟨9, _⟩ => ⟨S1x16777216, .f32⟩
  | .hbm, ⟨10, _⟩ => ⟨S1x16777216, .f32⟩
  | .hbm, ⟨11, _⟩ => ⟨S1x16777216, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | _, _ => ⟨S1x16777216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S1x16777216_S131072x128 : S1x16777216.ShapeCasts S131072x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  shapeCasts_S131072x128_S1x16777216 : S131072x128.ShapeCasts S1x16777216
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S131072x128.size a
  hwx0_0 : ∀ i : grid0.Coords, EltTy.bits .f32 = 32 ∨ (Rect.block (s := S131072x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S131072x128.size a
  hwx0_1 : ∀ i : grid0.Coords, EltTy.bits .f32 = 32 ∨ (Rect.block (s := S131072x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S131072x128.size a
  hwx0_2 : ∀ i : grid0.Coords, EltTy.bits .f32 = 32 ∨ (Rect.block (s := S131072x128) S4096x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S131072x128.size a
  hwx0_3 : ∀ i : grid0.Coords, EltTy.bits .f32 = 32 ∨ (Rect.block (s := S131072x128) S4096x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x128.size a ≤ S131072x128.size a
  hwx0_4 : ∀ i : grid0.Coords, EltTy.bits .f32 = 32 ∨ (Rect.block (s := S131072x128) S4096x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x128.size a ≤ S131072x128.size a
  hwx0_5 : ∀ i : grid0.Coords, EltTy.bits .f32 = 32 ∨ (Rect.block (s := S131072x128) S4096x128.size (cc0_transform_5 i) (hinb0_5 i)).WholeWords (EltTy.packing .f32)

variable [Facts₀]

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S4096x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S4096x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_2) S4096x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where
  halias0_3 : Pipeline.Aliased win0 0 3
  halias0_4 : Pipeline.Aliased win0 1 4
  halias0_5 : Pipeline.Aliased win0 2 5

variable [Facts]
-- ==== ReferenceIdeal.lean ====
abbrev S1x16777216 : Shape := ⟨2, ![1, 16777216]⟩
abbrev S_ : Shape := ⟨0, ![]⟩

abbrev nBuf : Space → Nat
  | .hbm => 78
  | .vmem => 0
  | .smem => 0
  | _ => 0

abbrev bufTy : (tb : Table) → Fin (tcTables nBuf tb) → BufTy
  | .hbm, ⟨0, _⟩ => ⟨S1x16777216, .f32⟩
  | .hbm, ⟨1, _⟩ => ⟨S1x16777216, .f32⟩
  | .hbm, ⟨2, _⟩ => ⟨S1x16777216, .f32⟩
  | .hbm, ⟨3, _⟩ => ⟨S_, .f32⟩
  | .hbm, ⟨4, _⟩ => ⟨S1x16777216, .f32⟩
  | .hbm, ⟨5, _⟩ => ⟨S1x16777216, .i1⟩
  | .hbm, ⟨6, _⟩ => ⟨S1x16777216, .f32⟩
  | .hbm, ⟨7, _⟩ => ⟨S_, .f32⟩
  | .hbm, ⟨8, _⟩ => ⟨S1x16777216, .f32⟩
  | .hbm, ⟨9, _⟩ => ⟨S1x16777216, .f32⟩
  | .hbm, ⟨10, _⟩ => ⟨S1x16777216, .f32⟩
  | .hbm, ⟨11, _⟩ => ⟨S1x16777216, .f32⟩
  | .hbm, ⟨12, _⟩ => ⟨S1x16777216, .f32⟩
  | .hbm, ⟨13, _⟩ => ⟨S_, .f32⟩
  | .hbm, ⟨14, _⟩ => ⟨S1x16777216, .f32⟩
  | .hbm, ⟨15, _⟩ => ⟨S1x16777216, .f32⟩
  | .hbm, ⟨16, _⟩ => ⟨S_, .f32⟩
  | .hbm, ⟨17, _⟩ => ⟨S1x16777216, .f32⟩
  | .hbm, ⟨18, _⟩ => ⟨S1x16777216, .f32⟩
  | .hbm, ⟨19, _⟩ => ⟨S_, .f32⟩
  | .hbm, ⟨20, _⟩ => ⟨S1x16777216, .f32⟩
  | .hbm, ⟨21, _⟩ => ⟨S1x16777216, .f32⟩
  | .hbm, ⟨22, _⟩ => ⟨S1x16777216, .f32⟩
  | .hbm, ⟨23, _⟩ => ⟨S_, .f32⟩
  | .hbm, ⟨24, _⟩ => ⟨S1x16777216, .f32⟩
  | .hbm, ⟨25, _⟩ => ⟨S1x16777216, .i1⟩
  | .hbm, ⟨26, _⟩ => ⟨S1x16777216, .f32⟩
  | .hbm, ⟨27, _⟩ => ⟨S_, .f32⟩
  | .hbm, ⟨28, _⟩ => ⟨S1x16777216, .f32⟩
  | .hbm, ⟨29, _⟩ => ⟨S1x16777216, .f32⟩
  | .hbm, ⟨30, _⟩ => ⟨S1x16777216, .f32⟩
  | .hbm, ⟨31, _⟩ => ⟨S1x16777216, .f32⟩
  | .hbm, ⟨32, _⟩ => ⟨S1x16777216, .f32⟩
  | .hbm, ⟨33, _⟩ => ⟨S_, .f32⟩
  | .hbm, ⟨34, _⟩ => ⟨S1x16777216, .f32⟩
  | .hbm, ⟨35, _⟩ => ⟨S1x16777216, .f32⟩
  | .hbm, ⟨36, _⟩ => ⟨S_, .f32⟩
  | .hbm, ⟨37, _⟩ => ⟨S1x16777216, .f32⟩
  | .hbm, ⟨38, _⟩ => ⟨S1x16777216, .f32⟩
  | .hbm, ⟨39, _⟩ => ⟨S_, .f32⟩
  | .hbm, ⟨40, _⟩ => ⟨S1x16777216, .f32⟩
  | .hbm, ⟨41, _⟩ => ⟨S1x16777216, .f32⟩
  | .hbm, ⟨42, _⟩ => ⟨S1x16777216, .f32⟩
  | .hbm, ⟨43, _⟩ => ⟨S_, .f32⟩
  | .hbm, ⟨44, _⟩ => ⟨S1x16777216, .f32⟩
  | .hbm, ⟨45, _⟩ => ⟨S1x16777216, .i1⟩
  | .hbm, ⟨46, _⟩ => ⟨S1x16777216, .f32⟩
  | .hbm, ⟨47, _⟩ => ⟨S_, .f32⟩
  | .hbm, ⟨48, _⟩ => ⟨S1x16777216, .f32⟩
  | .hbm, ⟨49, _⟩ => ⟨S1x16777216, .f32⟩
  | .hbm, ⟨50, _⟩ => ⟨S1x16777216, .f32⟩
  | .hbm, ⟨51, _⟩ => ⟨S1x16777216, .f32⟩
  | .hbm, ⟨52, _⟩ => ⟨S1x16777216, .f32⟩
  | .hbm, ⟨53, _⟩ => ⟨S_, .f32⟩
  | .hbm, ⟨54, _⟩ => ⟨S1x16777216, .f32⟩
  | .hbm, ⟨55, _⟩ => ⟨S1x16777216, .f32⟩
  | .hbm, ⟨56, _⟩ => ⟨S_, .f32⟩
  | .hbm, ⟨57, _⟩ => ⟨S1x16777216, .f32⟩
  | .hbm, ⟨58, _⟩ => ⟨S1x16777216, .f32⟩
  | .hbm, ⟨59, _⟩ => ⟨S_, .f32⟩
  | .hbm, ⟨60, _⟩ => ⟨S1x16777216, .f32⟩
  | .hbm, ⟨61, _⟩ => ⟨S1x16777216, .f32⟩
  | .hbm, ⟨62, _⟩ => ⟨S1x16777216, .f32⟩
  | .hbm, ⟨63, _⟩ => ⟨S_, .f32⟩
  | .hbm, ⟨64, _⟩ => ⟨S1x16777216, .f32⟩
  | .hbm, ⟨65, _⟩ => ⟨S1x16777216, .i1⟩
  | .hbm, ⟨66, _⟩ => ⟨S_, .f32⟩
  | .hbm, ⟨67, _⟩ => ⟨S1x16777216, .f32⟩
  | .hbm, ⟨68, _⟩ => ⟨S1x16777216, .i1⟩
  | .hbm, ⟨69, _⟩ => ⟨S_, .f32⟩
  | .hbm, ⟨70, _⟩ => ⟨S_, .f32⟩
  | .hbm, ⟨71, _⟩ => ⟨S1x16777216, .f32⟩
  | .hbm, ⟨72, _⟩ => ⟨S1x16777216, .f32⟩
  | .hbm, ⟨73, _⟩ => ⟨S1x16777216, .f32⟩
  | .hbm, ⟨74, _⟩ => ⟨S_, .f32⟩
  | .hbm, ⟨75, _⟩ => ⟨S1x16777216, .f32⟩
  | .hbm, ⟨76, _⟩ => ⟨S1x16777216, .i1⟩
  | .hbm, ⟨77, _⟩ => ⟨S1x16777216, .f32⟩
  | _, _ => ⟨S1x16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_v26 : Ref sig .tc := ⟨.hbm, 38, rfl⟩
abbrev main_cst_8 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_9 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_10 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_11 : Ref sig .tc := ⟨.hbm, 53, rfl⟩
abbrev main_v38 : Ref sig .tc := ⟨.hbm, 54, rfl⟩
abbrev main_v39 : Ref sig .tc := ⟨.hbm, 55, rfl⟩
abbrev main_cst_12 : Ref sig .tc := ⟨.hbm, 56, rfl⟩
abbrev main_v40 : Ref sig .tc := ⟨.hbm, 57, rfl⟩
abbrev main_v41 : Ref sig .tc := ⟨.hbm, 58, rfl⟩
abbrev main_cst_13 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_14 : Ref sig .tc := ⟨.hbm, 63, rfl⟩
abbrev main_v45 : Ref sig .tc := ⟨.hbm, 64, rfl⟩
abbrev main_v46 : Ref sig .tc := ⟨.hbm, 65, rfl⟩
abbrev main_cst_15 : Ref sig .tc := ⟨.hbm, 66, rfl⟩
abbrev main_v47 : Ref sig .tc := ⟨.hbm, 67, rfl⟩
abbrev main_v48 : Ref sig .tc := ⟨.hbm, 68, rfl⟩
abbrev main_cst_16 : Ref sig .tc := ⟨.hbm, 69, rfl⟩
abbrev main_call3_v0 : Ref sig .tc := ⟨.hbm, 70, rfl⟩
abbrev main_call3_v1 : Ref sig .tc := ⟨.hbm, 71, rfl⟩
abbrev main_v49 : Ref sig .tc := ⟨.hbm, 72, rfl⟩
abbrev main_v50 : Ref sig .tc := ⟨.hbm, 73, rfl⟩
abbrev main_cst_17 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩

abbrev nD : Nat := 1
abbrev τ : Topo := Topo.v7x

variable {F : FTy → Type} [FloatOps F]

class Facts₀ : Prop where
  bcast_S_S1x16777216 : S_.BroadcastsInDim S1x16777216 (![] : Fin 0 → Fin S1x16777216.rank)

variable [Facts₀]

class Facts : Prop extends Facts₀ where

variable [Facts]
-- ==== Proof.SpuLaw.lean ====
/-
  The scalar mathematics of this certificate, on the extended reals.

  SPU(z) is z² − 1/2 for z ≥ 0 and −σ(z) for z < 0, where σ(z) = 1 / (1 + e^(−z)) is the logistic function.
  One program computes the branch for the negatives as 0 − σ(z); the other as σ(−z) − 1, spelt out as
  1 / (1 + e^(−(−z))) − 1. The two expressions are one function of z on ALL of [−∞, +∞]:
    • at a real r, with a = e^r > 0:  −1 / (1 + 1/a) = −a / (1 + a) = 1 / (1 + a) − 1;
    • at −∞: σ(−∞) = 0, and e^(−∞) = 0 gives 1 / 1 − 1 = 0;
    • at +∞: σ(+∞) = 1, and e^(+∞) = +∞ gives 1 / (+∞) − 1 = 0 − 1 = −1.
  So the law needs no finiteness of its argument. The comparison z ≥ 0, the square and the constant 1/2 are the
  same text on both sides, and the two box bounds

      lower(l, u) = SPU(l) if l ≥ 0, else SPU(u) if u ≤ 0, else −1/2
      upper(l, u) = SPU(l) if u ≤ 0, else SPU(u)

  are selections among values of SPU, so they inherit the agreement.
-/
import Idealize.ShloMosaic.PureOps.Ideal
import Idealize.ShloMosaic.PureOps.Ideal.Laws
import Idealize.ShloMosaic.Lib.IdealHost

noncomputable section

namespace Cert.Spu

open Idealize.ShloMosaic

/-- The branch for the negatives as a difference from zero: 0 − σ(z). -/
def negBranch (z : EReal) : EReal :=
  Ideal.ofBits .f32 0x00000000#32 - Ideal.logistic z

/-- The same branch through the reflected logistic: 1 / (1 + e^(−(−z))) − 1, which is σ(−z) − 1. -/
def negBranchReflected (z : EReal) : EReal :=
  Ideal.div (Ideal.ofBits .f32 0x3F800000#32) (Ideal.ofBits .f32 0x3F800000#32 + Ideal.exp (-(-z)))
    - Ideal.ofBits .f32 0x3F800000#32

/-- σ(−z) − 1 = −σ(z) at every extended real: the real identity −a/(1+a) = 1/(1+a) − 1 with a = e^r, and the two
    limits 0 and −1 at −∞ and +∞. -/
theorem negBranchReflected_eq (z : EReal) : negBranchReflected z = negBranch z := by
  unfold negBranchReflected negBranch
  rw [Ideal.ofBits_zero_f32, Ideal.ofBits_one_f32, neg_neg]
  induction z using EReal.rec with
  | bot =>
    have h11 : (1 : EReal) - 1 = 0 := by rw [← EReal.coe_one, ← EReal.coe_sub, sub_self, EReal.coe_zero]
    simp [Ideal.div, h11]
  | coe r =>
    have hpos : (0 : ℝ) < 1 + Real.exp r := by positivity
    have hpos' : (0 : ℝ) < 1 + Real.exp (-r) := by positivity
    have h1 : (1 : EReal) + ((Real.exp r : ℝ) : EReal) = ((1 + Real.exp r : ℝ) : EReal) := by
      rw [EReal.coe_add, EReal.coe_one]
    rw [Ideal.logistic_coe, Ideal.exp_coe, h1, Ideal.div_coe hpos.ne', one_mul, zero_sub, ← EReal.coe_neg,
      ← EReal.coe_one, ← EReal.coe_sub]
    congr 1
    rw [Real.exp_neg]
    have ha : (0 : ℝ) < Real.exp r := Real.exp_pos r
    field_simp
    ring
  | top =>
    have h1t : (1 : EReal) + ⊤ = ⊤ := EReal.add_top_of_ne_bot (show (1 : EReal) ≠ ⊥ from EReal.coe_ne_bot 1)
    simp [Ideal.div, h1t]

/-- SPU on the extended reals, the branch for the negatives as 0 − σ(z). -/
def spu (z : EReal) : EReal :=
  Scalar.select (Ideal.cmp .oge z (Ideal.ofBits .f32 0x00000000#32))
    (z * z - Ideal.ofBits .f32 0x3F000000#32) (negBranch z)

/-- SPU with the branch for the negatives as σ(−z) − 1. -/
def spuReflected (z : EReal) : EReal :=
  Scalar.select (Ideal.cmp .oge z (Ideal.ofBits .f32 0x00000000#32))
    (z * z - Ideal.ofBits .f32 0x3F000000#32) (negBranchReflected z)

/-- The two spellings of SPU are one function. -/
theorem spuReflected_eq (z : EReal) : spuReflected z = spu z := by
  unfold spuReflected spu
  rw [negBranchReflected_eq]

/-- The lower box bound of SPU over [l, u]: SPU(l) when l ≥ 0 (SPU increases there), SPU(u) when u ≤ 0 (it decreases
    there), and the minimum −1/2 of SPU when the interval straddles zero. -/
def lower (l u : EReal) : EReal :=
  Scalar.select (Ideal.cmp .oge l (Ideal.ofBits .f32 0x00000000#32)) (spu l)
    (Scalar.select (Ideal.cmp .ole u (Ideal.ofBits .f32 0x00000000#32)) (spu u) (Ideal.ofBits .f32 0xBF000000#32))

/-- The upper box bound: SPU(l) when u ≤ 0, else SPU(u). -/
def upper (l u : EReal) : EReal :=
  Scalar.select (Ideal.cmp .ole u (Ideal.ofBits .f32 0x00000000#32)) (spu l) (spu u)

end Cert.Spu

end
-- ==== Proof.ReferenceSpu.lean ====
/-
  What the plain-jnp program computes, read element by element.

  Each of its three results is built from whole-array operations that act on every element alone: a comparison with a
  splat of zero, a square, a difference with a splat of 1/2, and the reflected logistic 1 / (1 + e^(−(−z))) − 1, joined
  by selections. Read at an index i, the first result is SPU of the first argument at i, and the other two are the
  lower and upper box bounds of SPU over [l i, u i] — in the spelling whose branch for the negatives is σ(−z) − 1.
  The scalar law σ(−z) − 1 = 0 − σ(z) then turns each into the spelling the other program uses.
-/
import proofs.«107943_j79259326480985_2_alg».proof.Proof.Gen.ReferenceIdeal.Run
import proofs.«107943_j79259326480985_2_alg».proof.Proof.SpuLaw

noncomputable section

namespace Cert.ReferenceIdeal.RefValue

open Cert.ReferenceIdeal Cert.ReferenceIdeal.Gen Idealize.ShloMosaic

/-- A scalar constant spread over the arrays' shape. -/
abbrev splat (b : BitVec 32) : FVec Ideal S1x16777216 .f32 :=
  broadcastInDim S1x16777216 ![] bcast_S_S1x16777216 (constant S_ .f32 b)

/-- SPU of a whole array, as the plain-jnp program spells it: where a ≥ 0 the square less 1/2, elsewhere
    1 / (1 + e^(−(−a))) − 1. -/
abbrev spuArr (a : FVec Ideal S1x16777216 .f32) : FVec Ideal S1x16777216 .f32 :=
  select (cmpf .oge a (splat 0x00000000#32)) (subf (mulf a a) (splat 0x3F000000#32))
    (subf (Host.divf (splat 0x3F800000#32) (addf (splat 0x3F800000#32) (Host.exp (Host.negf (Host.negf a)))))
      (splat 0x3F800000#32))

/-- At an index it is SPU of the element there. -/
theorem spuArr_apply (a : FVec Ideal S1x16777216 .f32) (i : S1x16777216.Idx) : spuArr a i = Spu.spu (a i) :=
  Spu.spuReflected_eq (a i)

/-- The first result: SPU of the first argument, element by element. -/
theorem x_out_eq (a0 : FVec Ideal S1x16777216 .f32) : spuArr a0 = fun i => Spu.spu (a0 i) :=
  funext fun i => spuArr_apply a0 i

/-- The second result: the lower box bound, element by element. -/
theorem l_out_eq (a1 a2 : FVec Ideal S1x16777216 .f32) :
    select (cmpf .oge a1 (splat 0x00000000#32)) (spuArr a1)
      (select (cmpf .ole a2 (splat 0x00000000#32)) (spuArr a2)
        (broadcastInDim S1x16777216 ![] bcast_S_S1x16777216 (id (constant S_ .f32 0xBF000000#32))))
      = fun i => Spu.lower (a1 i) (a2 i) := by
  funext i
  show Scalar.select _ (spuArr a1 i) (Scalar.select _ (spuArr a2 i) _) = _
  rw [spuArr_apply, spuArr_apply]
  rfl

/-- The third result: the upper box bound, element by element. -/
theorem u_out_eq (a1 a2 : FVec Ideal S1x16777216 .f32) :
    select (cmpf .ole a2 (splat 0x00000000#32)) (spuArr a1) (spuArr a2) = fun i => Spu.upper (a1 i) (a2 i) := by
  funext i
  show Scalar.select _ (spuArr a1 i) (spuArr a2 i) = _
  rw [spuArr_apply, spuArr_apply]
  rfl

end Cert.ReferenceIdeal.RefValue

end
-- ==== Proof.SpuBlocks.lean ====
/-
  What the pipelined program leaves in its three output arrays, block by block and then as whole arrays.

  The arrays are [131072, 128]; the grid has 32 points; at point t every one of the six windows is on block (t, 0) of
  its array, a block being [4096, 128]: rows 4096·t … 4096·t + 4095, all 128 columns. The body loads its three input
  blocks whole, computes element by element, and stores three output blocks whole. So what point t writes back to
  an output array is, at every element of block t, a function of the input arrays AT THE SAME ELEMENT: SPU of x for
  the first output, the lower and the upper box bound of SPU over [l, u] for the other two. The 32 blocks tile the
  array (row r lies in block r / 4096), hence after the last point each output array is that function of the input
  arrays at every index.
-/
import proofs.«107943_j79259326480985_2_alg».proof.Proof.Gen.KernelIdeal.Frame
import proofs.«107943_j79259326480985_2_alg».proof.Proof.SpuLaw
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

theorem hz : (![0, 0] : Fin 2 → Nat) = fun _ => 0 := funext fun a => by fin_cases a <;> rfl

/-! ## The body's arithmetic, element by element -/

/-- The value stored to the first output block is SPU of the first input block, element by element. -/
theorem stored_x (x : Vec Ideal S4096x128 .f32) : k0_pay4 (F := Ideal) x = fun j => Spu.spu (x j) := by
  unfold k0_pay4
  simp only [shapeCast_self]
  rfl

/-- The value stored to the second output block is the lower box bound of the second and third input blocks. -/
theorem stored_l (l u : Vec Ideal S4096x128 .f32) : k0_pay7 (F := Ideal) l u = fun j => Spu.lower (l j) (u j) := by
  unfold k0_pay7 k0_pay6 k0_pay5 k0_pay3 k0_pay2
  simp only [shapeCast_self]
  rfl

/-- The value stored to the third output block is their upper box bound. -/
theorem stored_u (l u : Vec Ideal S4096x128 .f32) :
    k0_pay1 (F := Ideal) (k0_pay3 u) (k0_pay5 l) (k0_pay6 u) (Scalar.ofBits .f32 0x00000000#32)
      = fun j => Spu.upper (l j) (u j) := by
  unfold k0_pay1 k0_pay6 k0_pay5 k0_pay3 k0_pay2
  simp only [shapeCast_self]
  rfl

/-! ## The three output arrays as functions of the input arrays -/

/-- SPU of an array, element by element. -/
def spuOf (x : S131072x128.Idx → Elt Ideal .f32) : S131072x128.Idx → Elt Ideal .f32 := fun i => Spu.spu (x i)
/-- The lower box bound of two arrays, element by element. -/
def lowerOf (l u : S131072x128.Idx → Elt Ideal .f32) : S131072x128.Idx → Elt Ideal .f32 := fun i => Spu.lower (l i) (u i)
/-- The upper box bound of two arrays, element by element. -/
def upperOf (l u : S131072x128.Idx → Elt Ideal .f32) : S131072x128.Idx → Elt Ideal .f32 := fun i => Spu.upper (l i) (u i)

/-! ## Where the windows are at a point -/

/-- At point t every window is on block (t, 0) of its array (decided over the 32 points). -/
theorem block_at : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Element j of the first input's block at point t and element j of the first output's block there are the same
    array index: row 4096·t + j₀, column j₁. -/
theorem same_index_0_3 (t : Fin cfg0.N) (j : S4096x128.Idx) :
    ((cfg0.win 0).blk t).view.emb j = ((cfg0.win 3).blk t).view.emb j := by
  obtain ⟨a0, b0, a1, b1, a2, b2, a3, b3, a4, b4, a5, b5⟩ := block_at t
  funext a; apply Fin.ext
  match a with
  | ⟨0, _⟩ => show win0_0.index t (0 : Fin 2) * 4096 + 1 * (j 0).val = win0_3.index t (0 : Fin 2) * 4096 + 1 * (j 0).val; omega
  | ⟨1, _⟩ => show win0_0.index t (1 : Fin 2) * 128 + 1 * (j 1).val = win0_3.index t (1 : Fin 2) * 128 + 1 * (j 1).val; omega

/-! ## The first output array -/

/-- What point t writes back to the first output array is block t of SPU of the first input array. -/
theorem written_x (c : Dev nD) (t : Fin cfg0.N) :
    (dats m 0 c).flushed 3 t = ((cfg0.win 3).blk t).view.read (Elt Ideal) (spuOf (V m c main_v0)) := by
  show (cfg0.win 3).cut (grid0.coords t) ((dats m 0 c).after 3 t) = _
  rw [after0_3]
  unfold out0_3
  rw [View.canon_unit_zero hz]
  simp only [View.ld_unit_zero (S := S4096x128) hz]
  rw [stored_x]
  funext j
  show Spu.spu (V m c main_v0 (((cfg0.win 0).blk t).view.emb j)) = Spu.spu (V m c main_v0 (((cfg0.win 3).blk t).view.emb j))
  rw [same_index_0_3 t j]

/-- An index of the array is in point t's block of the first output iff each coordinate is in the block's range. -/
theorem in_block_x (t : Fin cfg0.N) (i : S131072x128.Idx) :
    i ∈ ((cfg0.win 3).blk t).view.set ↔ ∀ a : Fin 2, win0_3.index t a * S4096x128.size a ≤ (i a).val ∧ (i a).val < win0_3.index t a * S4096x128.size a + S4096x128.size a := by
  show i ∈ ((View.whole main_v3_0).slice (win0_3.rect t)).set ↔ _
  rw [View.set_slice_whole, Rect.mem_set_unit]
  exact Iff.rfl

/-- Every index of the first output array is in some point's block: row r is in block r / 4096. -/
theorem tiled_x (i : S131072x128.Idx) :
    ∃ t : Fin cfg0.N, (cfg0.win 3).flush t = true ∧ i ∈ ((cfg0.win 3).blk t).view.set := by
  have hi0 : (i 0).val < 131072 := (i 0).isLt
  have hi1 : (i 1).val < 128 := (i 1).isLt
  obtain ⟨t, ht⟩ : ∃ t : Fin cfg0.N, t.val = (i 0).val / 4096 :=
    ⟨⟨(i 0).val / 4096, by rw [show cfg0.N = 32 from N_0]; omega⟩, rfl⟩
  obtain ⟨a0, b0, a1, b1, a2, b2, a3, b3, a4, b4, a5, b5⟩ := block_at t
  refine ⟨t, flush0_3 t, ?_⟩
  rw [in_block_x]
  intro a
  match a with
  | ⟨0, _⟩ => show win0_3.index t (0 : Fin 2) * 4096 ≤ (i 0).val ∧ (i 0).val < win0_3.index t (0 : Fin 2) * 4096 + 4096; omega
  | ⟨1, _⟩ => show win0_3.index t (1 : Fin 2) * 128 ≤ (i 1).val ∧ (i 1).val < win0_3.index t (1 : Fin 2) * 128 + 128; omega

/-- The first output array after the last point: SPU of the first input array. -/
theorem final_x (c : Dev nD) : (dats m 0 c).arrAt 3 cfg0.N = spuOf (V m c main_v0) :=
  (dats m 0 c).arrAt_eq_of_cover 3 (spuOf (V m c main_v0)) (fun t _ => written_x m c t) tiled_x

/-! ## The second output array -/

/-- Element j of the second input's block at point t and of the second output's block there: the same array index, row 4096·t + j₀, column j₁. -/
theorem same_index_1_4 (t : Fin cfg0.N) (j : S4096x128.Idx) :
    ((cfg0.win 1).blk t).view.emb j = ((cfg0.win 4).blk t).view.emb j := by
  obtain ⟨a0, b0, a1, b1, a2, b2, a3, b3, a4, b4, a5, b5⟩ := block_at t
  funext a; apply Fin.ext
  match a with
  | ⟨0, _⟩ => show win0_1.index t (0 : Fin 2) * 4096 + 1 * (j 0).val = win0_4.index t (0 : Fin 2) * 4096 + 1 * (j 0).val; omega
  | ⟨1, _⟩ => show win0_1.index t (1 : Fin 2) * 128 + 1 * (j 1).val = win0_4.index t (1 : Fin 2) * 128 + 1 * (j 1).val; omega

/-- Element j of the third input's block at point t and of the second output's block there: the same array index, row 4096·t + j₀, column j₁. -/
theorem same_index_2_4 (t : Fin cfg0.N) (j : S4096x128.Idx) :
    ((cfg0.win 2).blk t).view.emb j = ((cfg0.win 4).blk t).view.emb j := by
  obtain ⟨a0, b0, a1, b1, a2, b2, a3, b3, a4, b4, a5, b5⟩ := block_at t
  funext a; apply Fin.ext
  match a with
  | ⟨0, _⟩ => show win0_2.index t (0 : Fin 2) * 4096 + 1 * (j 0).val = win0_4.index t (0 : Fin 2) * 4096 + 1 * (j 0).val; omega
  | ⟨1, _⟩ => show win0_2.index t (1 : Fin 2) * 128 + 1 * (j 1).val = win0_4.index t (1 : Fin 2) * 128 + 1 * (j 1).val; omega

/-- What point t writes back to the second output array is block t of the lower box bound of the second and third
    input arrays. -/
theorem written_l (c : Dev nD) (t : Fin cfg0.N) :
    (dats m 0 c).flushed 4 t
      = ((cfg0.win 4).blk t).view.read (Elt Ideal) (lowerOf (V m c main_v1) (V m c main_v2)) := by
  show (cfg0.win 4).cut (grid0.coords t) ((dats m 0 c).after 4 t) = _
  rw [after0_4]
  unfold out0_4
  rw [View.canon_unit_zero hz]
  simp only [View.ld_unit_zero (S := S4096x128) hz]
  rw [stored_l]
  funext j
  show Spu.lower (V m c main_v1 (((cfg0.win 1).blk t).view.emb j)) (V m c main_v2 (((cfg0.win 2).blk t).view.emb j))
    = Spu.lower (V m c main_v1 (((cfg0.win 4).blk t).view.emb j)) (V m c main_v2 (((cfg0.win 4).blk t).view.emb j))
  rw [same_index_1_4 t j, same_index_2_4 t j]

/-- An index of the array is in point t's block of the second output iff each coordinate is in the block's range. -/
theorem in_block_l (t : Fin cfg0.N) (i : S131072x128.Idx) :
    i ∈ ((cfg0.win 4).blk t).view.set ↔ ∀ a : Fin 2, win0_4.index t a * S4096x128.size a ≤ (i a).val ∧ (i a).val < win0_4.index t a * S4096x128.size a + S4096x128.size a := by
  show i ∈ ((View.whole main_v3_1).slice (win0_4.rect t)).set ↔ _
  rw [View.set_slice_whole, Rect.mem_set_unit]
  exact Iff.rfl

/-- Every index of the second output array is in some point's block: row r is in block r / 4096. -/
theorem tiled_l (i : S131072x128.Idx) :
    ∃ t : Fin cfg0.N, (cfg0.win 4).flush t = true ∧ i ∈ ((cfg0.win 4).blk t).view.set := by
  have hi0 : (i 0).val < 131072 := (i 0).isLt
  have hi1 : (i 1).val < 128 := (i 1).isLt
  obtain ⟨t, ht⟩ : ∃ t : Fin cfg0.N, t.val = (i 0).val / 4096 :=
    ⟨⟨(i 0).val / 4096, by rw [show cfg0.N = 32 from N_0]; omega⟩, rfl⟩
  obtain ⟨a0, b0, a1, b1, a2, b2, a3, b3, a4, b4, a5, b5⟩ := block_at t
  refine ⟨t, flush0_4 t, ?_⟩
  rw [in_block_l]
  intro a
  match a with
  | ⟨0, _⟩ => show win0_4.index t (0 : Fin 2) * 4096 ≤ (i 0).val ∧ (i 0).val < win0_4.index t (0 : Fin 2) * 4096 + 4096; omega
  | ⟨1, _⟩ => show win0_4.index t (1 : Fin 2) * 128 ≤ (i 1).val ∧ (i 1).val < win0_4.index t (1 : Fin 2) * 128 + 128; omega

/-- The second output array after the last point: the lower box bound of the second and third input arrays. -/
theorem final_l (c : Dev nD) : (dats m 0 c).arrAt 4 cfg0.N = lowerOf (V m c main_v1) (V m c main_v2) :=
  (dats m 0 c).arrAt_eq_of_cover 4 (lowerOf (V m c main_v1) (V m c main_v2)) (fun t _ => written_l m c t) tiled_l

/-! ## The third output array -/

/-- Element j of the second input's block at point t and of the third output's block there: the same array index, row 4096·t + j₀, column j₁. -/
theorem same_index_1_5 (t : Fin cfg0.N) (j : S4096x128.Idx) :
    ((cfg0.win 1).blk t).view.emb j = ((cfg0.win 5).blk t).view.emb j := by
  obtain ⟨a0, b0, a1, b1, a2, b2, a3, b3, a4, b4, a5, b5⟩ := block_at t
  funext a; apply Fin.ext
  match a with
  | ⟨0, _⟩ => show win0_1.index t (0 : Fin 2) * 4096 + 1 * (j 0).val = win0_5.index t (0 : Fin 2) * 4096 + 1 * (j 0).val; omega
  | ⟨1, _⟩ => show win0_1.index t (1 : Fin 2) * 128 + 1 * (j 1).val = win0_5.index t (1 : Fin 2) * 128 + 1 * (j 1).val; omega

/-- Element j of the third input's block at point t and of the third output's block there: the same array index, row 4096·t + j₀, column j₁. -/
theorem same_index_2_5 (t : Fin cfg0.N) (j : S4096x128.Idx) :
    ((cfg0.win 2).blk t).view.emb j = ((cfg0.win 5).blk t).view.emb j := by
  obtain ⟨a0, b0, a1, b1, a2, b2, a3, b3, a4, b4, a5, b5⟩ := block_at t
  funext a; apply Fin.ext
  match a with
  | ⟨0, _⟩ => show win0_2.index t (0 : Fin 2) * 4096 + 1 * (j 0).val = win0_5.index t (0 : Fin 2) * 4096 + 1 * (j 0).val; omega
  | ⟨1, _⟩ => show win0_2.index t (1 : Fin 2) * 128 + 1 * (j 1).val = win0_5.index t (1 : Fin 2) * 128 + 1 * (j 1).val; omega

/-- What point t writes back to the third output array is block t of the upper box bound of the second and third
    input arrays. -/
theorem written_u (c : Dev nD) (t : Fin cfg0.N) :
    (dats m 0 c).flushed 5 t
      = ((cfg0.win 5).blk t).view.read (Elt Ideal) (upperOf (V m c main_v1) (V m c main_v2)) := by
  show (cfg0.win 5).cut (grid0.coords t) ((dats m 0 c).after 5 t) = _
  rw [after0_5]
  unfold out0_5
  rw [View.canon_unit_zero hz]
  simp only [View.ld_unit_zero (S := S4096x128) hz]
  rw [stored_u]
  funext j
  show Spu.upper (V m c main_v1 (((cfg0.win 1).blk t).view.emb j)) (V m c main_v2 (((cfg0.win 2).blk t).view.emb j))
    = Spu.upper (V m c main_v1 (((cfg0.win 5).blk t).view.emb j)) (V m c main_v2 (((cfg0.win 5).blk t).view.emb j))
  rw [same_index_1_5 t j, same_index_2_5 t j]

/-- An index of the array is in point t's block of the third output iff each coordinate is in the block's range. -/
theorem in_block_u (t : Fin cfg0.N) (i : S131072x128.Idx) :
    i ∈ ((cfg0.win 5).blk t).view.set ↔ ∀ a : Fin 2, win0_5.index t a * S4096x128.size a ≤ (i a).val ∧ (i a).val < win0_5.index t a * S4096x128.size a + S4096x128.size a := by
  show i ∈ ((View.whole main_v3_2).slice (win0_5.rect t)).set ↔ _
  rw [View.set_slice_whole, Rect.mem_set_unit]
  exact Iff.rfl

/-- Every index of the third output array is in some point's block: row r is in block r / 4096. -/
theorem tiled_u (i : S131072x128.Idx) :
    ∃ t : Fin cfg0.N, (cfg0.win 5).flush t = true ∧ i ∈ ((cfg0.win 5).blk t).view.set := by
  have hi0 : (i 0).val < 131072 := (i 0).isLt
  have hi1 : (i 1).val < 128 := (i 1).isLt
  obtain ⟨t, ht⟩ : ∃ t : Fin cfg0.N, t.val = (i 0).val / 4096 :=
    ⟨⟨(i 0).val / 4096, by rw [show cfg0.N = 32 from N_0]; omega⟩, rfl⟩
  obtain ⟨a0, b0, a1, b1, a2, b2, a3, b3, a4, b4, a5, b5⟩ := block_at t
  refine ⟨t, flush0_5 t, ?_⟩
  rw [in_block_u]
  intro a
  match a with
  | ⟨0, _⟩ => show win0_5.index t (0 : Fin 2) * 4096 ≤ (i 0).val ∧ (i 0).val < win0_5.index t (0 : Fin 2) * 4096 + 4096; omega
  | ⟨1, _⟩ => show win0_5.index t (1 : Fin 2) * 128 ≤ (i 1).val ∧ (i 1).val < win0_5.index t (1 : Fin 2) * 128 + 128; omega

/-- The third output array after the last point: the upper box bound of the second and third input arrays. -/
theorem final_u (c : Dev nD) : (dats m 0 c).arrAt 5 cfg0.N = upperOf (V m c main_v1) (V m c main_v2) :=
  (dats m 0 c).arrAt_eq_of_cover 5 (upperOf (V m c main_v1) (V m c main_v2)) (fun t _ => written_u m c t) tiled_u

end Cert.KernelIdeal.Blocks

end
-- ==== Proof.SpuRun.lean ====
/-
  The pipelined program's run, read as whole arrays of the arguments.

  Before the pipeline each [1, 16777216] argument is re-laid as [131072, 128] (the same elements in row-major order);
  after it each [131072, 128] output array is re-laid back as [1, 16777216]. The pipeline's outputs are element-by-element
  functions of its inputs, and re-laying an array there and back is the identity, so each result at index i is that
  function of the arguments at index i: SPU of x, and the lower and upper box bounds of SPU over [l, u].
-/
import proofs.«107943_j79259326480985_2_alg».proof.Proof.SpuBlocks
import Idealize.ShloMosaic.Lib.StableHlo.Run

set_option maxRecDepth 16384

noncomputable section

namespace Cert.KernelIdeal.Whole

open Cert.KernelIdeal Cert.KernelIdeal.Gen Cert.KernelIdeal.Blocks
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-! ## Re-laying there and back under an element-by-element function -/

/-- A function of one array's elements, applied to the re-laid array and re-laid back, is the function of the
    array's own elements. -/
theorem relay_map {s t : Shape} {α β : Type} (f : α → β) (a : s.Idx → α) (h : s.ShapeCasts t) (h' : t.ShapeCasts s) :
    shapeCast s (fun j => f (shapeCast t a h j)) h' = fun i => f (a i) := by
  funext i
  show f (shapeCast s (shapeCast t a h) h' i) = f (a i)
  rw [shapeCast_shapeCast]

/-- The same for a function of two arrays' elements. -/
theorem relay_map₂ {s t : Shape} {α β : Type} (f : α → α → β) (a b : s.Idx → α) (h : s.ShapeCasts t) (h' : t.ShapeCasts s) :
    shapeCast s (fun j => f (shapeCast t a h j) (shapeCast t b h j)) h' = fun i => f (a i) (b i) := by
  funext i
  show f (shapeCast s (shapeCast t a h) h' i) (shapeCast s (shapeCast t b h) h' i) = f (a i) (b i)
  rw [shapeCast_shapeCast, shapeCast_shapeCast]

/-! ## The pipeline's input arrays: the arguments re-laid -/

theorem input_x (c : Dev nD) : (V m c main_v0 : S131072x128.Idx → Elt Ideal .f32)
    = shapeCast S131072x128 (m ((c : Thread nD τ).loc main_arg0)) shapeCasts_S1x16777216_S131072x128 := by
  show StableHlo.after hostOps0 (fun b => m (c, b)) (Proc.devRef .tc main_v0) = _
  after_results
  rfl

theorem input_l (c : Dev nD) : (V m c main_v1 : S131072x128.Idx → Elt Ideal .f32)
    = shapeCast S131072x128 (m ((c : Thread nD τ).loc main_arg1)) shapeCasts_S1x16777216_S131072x128 := by
  show StableHlo.after hostOps0 (fun b => m (c, b)) (Proc.devRef .tc main_v1) = _
  after_results
  rfl

theorem input_u (c : Dev nD) : (V m c main_v2 : S131072x128.Idx → Elt Ideal .f32)
    = shapeCast S131072x128 (m ((c : Thread nD τ).loc main_arg2)) shapeCasts_S1x16777216_S131072x128 := by
  show StableHlo.after hostOps0 (fun b => m (c, b)) (Proc.devRef .tc main_v2) = _
  after_results
  rfl

/-! ## The results: the pipeline's output arrays re-laid -/

theorem output_x (c : Dev nD) :
    Pipeline.afterTail₀ cfgs (dats m) 0 (V0 m) [hostOps1] c main_v4
      = shapeCast S1x16777216 ((dats m 0 c).arrAt 3 cfg0.N) shapeCasts_S131072x128_S1x16777216 := by
  unfold Pipeline.afterTail₀
  show StableHlo.after hostOps1 _ (Proc.devRef .tc main_v4) = _
  after_results
  funext i
  show shapeCast S1x16777216 (Pipeline.withArrays spec0 c (V0 m c) (fun w => (dats m 0 c).arrAt w cfg0.N)
    (Proc.devRef .tc (Pipeline.arrRef spec0 3))) shapeCasts_S131072x128_S1x16777216 i = _
  rw [Pipeline.withArrays_arr spec0 launch0.win.arr_inj c (V0 m c) (fun w => (dats m 0 c).arrAt w cfg0.N) 3]

theorem output_l (c : Dev nD) :
    Pipeline.afterTail₀ cfgs (dats m) 0 (V0 m) [hostOps1] c main_v5
      = shapeCast S1x16777216 ((dats m 0 c).arrAt 4 cfg0.N) shapeCasts_S131072x128_S1x16777216 := by
  unfold Pipeline.afterTail₀
  show StableHlo.after hostOps1 _ (Proc.devRef .tc main_v5) = _
  after_results
  funext i
  show shapeCast S1x16777216 (Pipeline.withArrays spec0 c (V0 m c) (fun w => (dats m 0 c).arrAt w cfg0.N)
    (Proc.devRef .tc (Pipeline.arrRef spec0 4))) shapeCasts_S131072x128_S1x16777216 i = _
  rw [Pipeline.withArrays_arr spec0 launch0.win.arr_inj c (V0 m c) (fun w => (dats m 0 c).arrAt w cfg0.N) 4]

theorem output_u (c : Dev nD) :
    Pipeline.afterTail₀ cfgs (dats m) 0 (V0 m) [hostOps1] c main_v6
      = shapeCast S1x16777216 ((dats m 0 c).arrAt 5 cfg0.N) shapeCasts_S131072x128_S1x16777216 := by
  unfold Pipeline.afterTail₀
  show StableHlo.after hostOps1 _ (Proc.devRef .tc main_v6) = _
  after_results
  funext i
  show shapeCast S1x16777216 (Pipeline.withArrays spec0 c (V0 m c) (fun w => (dats m 0 c).arrAt w cfg0.N)
    (Proc.devRef .tc (Pipeline.arrRef spec0 5))) shapeCasts_S131072x128_S1x16777216 i = _
  rw [Pipeline.withArrays_arr spec0 launch0.win.arr_inj c (V0 m c) (fun w => (dats m 0 c).arrAt w cfg0.N) 5]

/-! ## Each result as a function of the arguments, index by index -/

/-- The first result is SPU of the first argument. -/
theorem result_x (c : Dev nD) :
    Pipeline.afterTail₀ cfgs (dats m) 0 (V0 m) [hostOps1] c main_v4
      = fun i => Spu.spu (m ((c : Thread nD τ).loc main_arg0) i) := by
  rw [output_x, final_x, input_x]
  exact relay_map Spu.spu _ _ _

/-- The second result is the lower box bound of the second and third arguments. -/
theorem result_l (c : Dev nD) :
    Pipeline.afterTail₀ cfgs (dats m) 0 (V0 m) [hostOps1] c main_v5
      = fun i => Spu.lower (m ((c : Thread nD τ).loc main_arg1) i) (m ((c : Thread nD τ).loc main_arg2) i) := by
  rw [output_l, final_l, input_l, input_u]
  exact relay_map₂ Spu.lower _ _ _ _

/-- The third result is their upper box bound. -/
theorem result_u (c : Dev nD) :
    Pipeline.afterTail₀ cfgs (dats m) 0 (V0 m) [hostOps1] c main_v6
      = fun i => Spu.upper (m ((c : Thread nD τ).loc main_arg1) i) (m ((c : Thread nD τ).loc main_arg2) i) := by
  rw [output_u, final_u, input_l, input_u]
  exact relay_map₂ Spu.upper _ _ _ _

/-! ## The run -/

/-- Every weakly fair execution terminates with the three results at SPU, the lower bound and the upper bound of the
    arguments, index by index, and the arguments unchanged. -/
theorem run : θ_run defs (onTc (τ := τ) (main (F := Ideal))) ⟨m, fun _ => 0, ρ⟩ fun r => ∀ c : Dev nD,
      r.2.mem ((c.tc : Thread nD τ).loc main_v4) = (fun i => Spu.spu (m ((c : Thread nD τ).loc main_arg0) i))
      ∧ r.2.mem ((c.tc : Thread nD τ).loc main_v5)
          = (fun i => Spu.lower (m ((c : Thread nD τ).loc main_arg1) i) (m ((c : Thread nD τ).loc main_arg2) i))
      ∧ r.2.mem ((c.tc : Thread nD τ).loc main_v6)
          = (fun i => Spu.upper (m ((c : Thread nD τ).loc main_arg1) i) (m ((c : Thread nD τ).loc main_arg2) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (result_x m c),
      ((h c).2 main_v5 (Pipeline.mem_restRefs_of main_v5 (by decide) (by decide))).trans (result_l m c),
      ((h c).2 main_v6 (Pipeline.mem_restRefs_of main_v6 (by decide) (by decide))).trans (result_u m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Whole

end
-- ==== Proof.lean ====
/-
  Three arrays x, l, u of 16,777,216 reals each; three results:

      x_out = SPU(x),   l_out = lower(l, u),   u_out = upper(l, u),   element by element,

  where SPU(z) = z² − 1/2 for z ≥ 0 and −σ(z) for z < 0 (σ the logistic function), and lower / upper are the box bounds of
  SPU over the interval [l, u]: selections among SPU(l), SPU(u) and the minimum −1/2 by the signs of l and u.

  One program re-lays each argument as [131072, 128], runs a pipeline over 32 row blocks of 4096 rows whose body works
  element by element, and re-lays the three outputs back; it writes the branch for the negatives as 0 − σ(z). The other
  applies whole-array operations to the [1, 16777216] arguments and writes that branch as σ(−z) − 1 =
  1 / (1 + e^(−(−z))) − 1. On the extended reals the two branches are one function (Proof/SpuLaw.lean: the real identity
  −a/(1+a) = 1/(1+a) − 1 at a = e^r, and the limits at ±∞), the blocks tile the arrays (Proof/SpuBlocks.lean), and
  re-laying there and back is the identity (Proof/SpuRun.lean); the whole-array program's results read at an index are
  the same scalar functions (Proof/ReferenceSpu.lean). The law holds at every extended real, so the equality of the
  results uses nothing of the arguments' finiteness.
-/
import proofs.«107943_j79259326480985_2_alg».proof.Defs
import proofs.«107943_j79259326480985_2_alg».proof.Proof.Gen.Kernel
import proofs.«107943_j79259326480985_2_alg».proof.Proof.Gen.Kernel.Skeleton
import proofs.«107943_j79259326480985_2_alg».proof.Proof.Gen.Kernel.Launch
import proofs.«107943_j79259326480985_2_alg».proof.Proof.Gen.Kernel.Points
import proofs.«107943_j79259326480985_2_alg».proof.Proof.Gen.Kernel.Frame
import proofs.«107943_j79259326480985_2_alg».proof.Proof.Gen.KernelIdeal
import proofs.«107943_j79259326480985_2_alg».proof.Proof.Gen.KernelIdeal.Skeleton
import proofs.«107943_j79259326480985_2_alg».proof.Proof.Gen.KernelIdeal.Launch
import proofs.«107943_j79259326480985_2_alg».proof.Proof.Gen.KernelIdeal.Points
import proofs.«107943_j79259326480985_2_alg».proof.Proof.Gen.KernelIdeal.Frame
import proofs.«107943_j79259326480985_2_alg».proof.Proof.Gen.ReferenceIdeal
import proofs.«107943_j79259326480985_2_alg».proof.Proof.Gen.Pre_finite_inputs
import proofs.«107943_j79259326480985_2_alg».proof.Proof.Gen.ReferenceIdeal.Run
import proofs.«107943_j79259326480985_2_alg».proof.Proof.SpuLaw
import proofs.«107943_j79259326480985_2_alg».proof.Proof.ReferenceSpu
import proofs.«107943_j79259326480985_2_alg».proof.Proof.SpuBlocks
import proofs.«107943_j79259326480985_2_alg».proof.Proof.SpuRun
import Idealize.ShloMosaic.Adequacy
import Idealize.ShloMosaic.Init

noncomputable section

namespace Cert.Proof

open Idealize.ShloMosaic Idealize.SL.Sem

/-- The pipelined program at the word level terminates without a fault and leaves its arguments as they were. -/
theorem frame_kernel : Cert.frame_Kernel := fun m ρ _ => Cert.Kernel.Gen.frame m ρ

/-- So does the same program read on the extended reals. -/
theorem frame_kernelIdeal : Cert.frame_KernelIdeal := fun m ρ _ => Cert.KernelIdeal.Gen.frame m ρ

/-- So does the whole-array program: its run, with the results dropped. -/
theorem frame_reference : Cert.frame_ReferenceIdeal := fun m ρ _ =>
  (θ_run Cert.ReferenceIdeal.defs _ _).mono (fun _ h c => (h c).2.2.2)
    (Cert.ReferenceIdeal.Value.run (F := Ideal) m ρ)

/-- Nothing of the pipelined program's text was rewritten for the reading on the extended reals. -/
theorem preserves : Cert.preserves_Kernel_KernelIdeal := trivial

/-- From arguments that agree, both programs end with x_out = SPU(x), l_out = lower(l, u), u_out = upper(l, u) at every
    index: the pipelined one by its blocks and the two re-layings, the whole-array one by reading its operations at an
    index and the law σ(−z) − 1 = 0 − σ(z). -/
theorem algebraic : Cert.algebraic_KernelIdeal_ReferenceIdeal := by
  intro m ρ m' ρ' _ hagree
  refine ⟨_, _, _, Cert.KernelIdeal.Whole.run m ρ, ?_⟩
  refine (θ_run Cert.ReferenceIdeal.defs _ _).mono (fun _ h c => ?_)
    (Cert.ReferenceIdeal.Value.run (F := Ideal) m' ρ')
  obtain ⟨h0, h1, h2, hkept⟩ := h c
  obtain ⟨e0, e1, e2⟩ := hagree c
  refine ⟨h0.trans ?_, h1.trans ?_, h2.trans ?_, hkept⟩
  · rw [e0]
    exact Cert.ReferenceIdeal.RefValue.x_out_eq _
  · rw [e1, e2]
    exact Cert.ReferenceIdeal.RefValue.l_out_eq _ _
  · rw [e1, e2]
    exact Cert.ReferenceIdeal.RefValue.u_out_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
